-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4096x1024 : Shape := ⟨2, ![4096, 1024]⟩
abbrev S4096 : Shape := ⟨1, ![4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096x1024 .f32) (main_arg6 : FVec F S4096 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S8192x1024 .f32) (main_arg1 : FVec F S8192x1024 .f32) (main_arg2 : FVec F S8192x1024 .f32) (main_arg3 : FVec F S4096x1024 .f32) (main_arg4 : FVec F S4096 .f32) (main_arg5 : FVec F S4096x1024 .f32) (main_arg6 : FVec F S4096 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_v13 main_v16
-- ==== Kernel.lean ====
abbrev S8192x1024 : Shape := ⟨2, ![8192, 1024]⟩
abbrev S4096x1024 : Shape := ⟨2, ![4096, 1024]⟩
abbrev S4096 : Shape := ⟨1, ![4096]⟩
abbrev S1024x4096 : Shape := ⟨2, ![1024, 4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 15
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4096x1024, .f32⟩
  | .hbm, ⟨4, _⟩ => ⟨S4096, .f32⟩
  | .hbm, ⟨5, _⟩ => ⟨S4096x1024, .f32⟩
  | .hbm, ⟨6, _⟩ => ⟨S4096, .f32⟩
  | .hbm, ⟨7, _⟩ => ⟨S1024x4096, .f32⟩
  | .hbm, ⟨8, _⟩ => ⟨S1024x4096, .bf16⟩
  | .hbm, ⟨9, _⟩ => ⟨S1024x4096, .f32⟩
  | .hbm, ⟨10, _⟩ => ⟨S1024x4096, .bf16⟩
  | .hbm, ⟨11, _⟩ => ⟨S4096, .f32⟩
  | .hbm, ⟨12, _⟩ => ⟨S1x4096, .f32⟩
  | .hbm, ⟨13, _⟩ => ⟨S8192x1024, .f32⟩
  | .hbm, ⟨14, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S4096x1024_S1024x4096_1_0 : S4096x1024.Transposes [1, 0] S1024x4096
  bitsLt_bf16_f32 : FTy.bits .bf16 < FTy.bits .f32
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4096x1024 : Shape := ⟨2, ![4096, 1024]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4096x1024, .f32⟩
  | .hbm, ⟨4, _⟩ => ⟨S4096, .f32⟩
  | .hbm, ⟨5, _⟩ => ⟨S4096x1024, .f32⟩
  | .hbm, ⟨6, _⟩ => ⟨S4096, .f32⟩
  | .hbm, ⟨7, _⟩ => ⟨S8192x4096, .f32⟩
  | .hbm, ⟨8, _⟩ => ⟨S1x4096, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S1x4096, .f32⟩
  | .hbm, ⟨14, _⟩ => ⟨S8192x4096, .f32⟩
  | .hbm, ⟨15, _⟩ => ⟨S8192x4096, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x1024_S4096x1024_S8192x4096_1_1_0_0_n_n_wf : DotDims.WF S8192x1024 S4096x1024 S8192x4096 [1] [1] [0] [0] [] []

variable [Facts₀]

def dot_S8192x1024_S4096x1024_S8192x4096_1_1_0_0_n_n : DotDims S8192x1024 S4096x1024 S8192x4096 where
  lhsContracting := [1]
  rhsContracting := [1]
  lhsNonContracting := [0]
  rhsNonContracting := [0]
  lhsBatch := []
  rhsBatch := []
  wf := dot_S8192x1024_S4096x1024_S8192x4096_1_1_0_0_n_n_wf

class Facts : Prop extends Facts₀ where

variable [Facts]
-- ==== Proof.LstmSpec.lean ====
/-
  One step of an LSTM cell, as functions on the extended reals.

  A batch of 8192 rows, 1024 input features and 1024 hidden units. For row `b` and gate column `g` (0 ≤ g < 4096) the
  pre-activation is

      pre b g = (Σ_k x[b,k] · Wi[g,k]  +  Σ_k h[b,k] · Wh[g,k])  +  (bi[g] + bh[g]).

  The four bands of 1024 columns are the input, forget, candidate and output gates, and for hidden unit `j`

      c'[b,j] = σ(pre b (j+1024)) · c[b,j]  +  σ(pre b j) · tanh(pre b (j+2048))
      h'[b,j] = σ(pre b (j+3072)) · tanh(c'[b,j]),

  with σ x = 1 / (1 + e^(−x)). Nothing here assumes the entries finite: every statement holds for all extended reals.
  The only law used is that addition of extended reals is associative and commutative, which lets the two biases be
  added first (`gatePre`) or one after each product (`gatePre_eq_interleaved`).
-/
import Idealize.ShloMosaic.Lib.ValueIdx

noncomputable section

open scoped BigOperators

namespace Cert.Lstm

open Idealize.ShloMosaic Idealize.ShloMosaic.ValueIdx

/-- The shape of the activations and of the cell state: one row per batch element, one column per unit. -/
abbrev Act : Shape := ⟨2, ![8192, 1024]⟩
/-- The shape of a weight matrix: one row per gate column, one column per feature. -/
abbrev Wt : Shape := ⟨2, ![4096, 1024]⟩
/-- The shape of a bias: one entry per gate column. -/
abbrev Bias : Shape := ⟨1, ![4096]⟩

/-- The gate pre-activation of row `b` at gate column `g`: the two products' sums added, then the two biases' sum. -/
def gatePre (x h : FVec Ideal Act .f32) (Wi Wh : FVec Ideal Wt .f32) (bi bh : FVec Ideal Bias .f32)
    (b : Fin 8192) (g : Fin 4096) : EReal :=
  ((∑ k : Fin 1024, x (ix2 b k) * Wi (ix2 g k)) + (∑ k : Fin 1024, h (ix2 b k) * Wh (ix2 g k)))
    + (bi (ix1 g) + bh (ix1 g))

/-- The same number with each bias added right after its product: addition of extended reals is associative and
    commutative, with no condition on the summands. -/
theorem gatePre_eq_interleaved (x h : FVec Ideal Act .f32) (Wi Wh : FVec Ideal Wt .f32) (bi bh : FVec Ideal Bias .f32)
    (b : Fin 8192) (g : Fin 4096) :
    (((∑ k : Fin 1024, x (ix2 b k) * Wi (ix2 g k)) + bi (ix1 g)) + (∑ k : Fin 1024, h (ix2 b k) * Wh (ix2 g k)))
      + bh (ix1 g) = gatePre x h Wi Wh bi bh b g := by
  unfold gatePre
  rw [add_add_add_comm, add_assoc]

/-- The new cell state of row `b` at unit `j`: the forget gate times the old state plus the input gate times the
    candidate. -/
def cellNext (x h c : FVec Ideal Act .f32) (Wi Wh : FVec Ideal Wt .f32) (bi bh : FVec Ideal Bias .f32)
    (b : Fin 8192) (j : Fin 1024) : EReal :=
  Ideal.logistic (gatePre x h Wi Wh bi bh b ⟨j.val + 1024, by have := j.isLt; omega⟩) * c (ix2 b j)
    + Ideal.logistic (gatePre x h Wi Wh bi bh b ⟨j.val, by have := j.isLt; omega⟩)
      * Ideal.tanh (gatePre x h Wi Wh bi bh b ⟨j.val + 2048, by have := j.isLt; omega⟩)

/-- The new hidden state of row `b` at unit `j`: the output gate times tanh of the new cell state. -/
def hidNext (x h c : FVec Ideal Act .f32) (Wi Wh : FVec Ideal Wt .f32) (bi bh : FVec Ideal Bias .f32)
    (b : Fin 8192) (j : Fin 1024) : EReal :=
  Ideal.logistic (gatePre x h Wi Wh bi bh b ⟨j.val + 3072, by have := j.isLt; omega⟩)
    * Ideal.tanh (cellNext x h c Wi Wh bi bh b j)

/-- The new cell state as an array. -/
def cellArr (x h c : FVec Ideal Act .f32) (Wi Wh : FVec Ideal Wt .f32) (bi bh : FVec Ideal Bias .f32) :
    FVec Ideal Act .f32 :=
  fun i => cellNext x h c Wi Wh bi bh ⟨(i 0).val, idx2_lt0 i⟩ ⟨(i 1).val, idx2_lt1 i⟩

/-- The new hidden state as an array. -/
def hidArr (x h c : FVec Ideal Act .f32) (Wi Wh : FVec Ideal Wt .f32) (bi bh : FVec Ideal Bias .f32) :
    FVec Ideal Act .f32 :=
  fun i => hidNext x h c Wi Wh bi bh ⟨(i 0).val, idx2_lt0 i⟩ ⟨(i 1).val, idx2_lt1 i⟩

/-- The single-precision pattern of one denotes the number one. -/
theorem ofBits_one_f32 : Ideal.ofBits .f32 0x3F800000#32 = 1 := by
  simp [Ideal.ofBits, Ideal.ieee, -EReal.coe_mul]; norm_num

/-- The sigmoid spelt out with that pattern for its two ones — one over one plus the exponential of the negated
    argument — is the sigmoid, at every extended real. -/
theorem logistic_spelt (z : EReal) :
    Ideal.div (Ideal.ofBits .f32 0x3F800000#32) (Ideal.ofBits .f32 0x3F800000#32 + Ideal.exp (-z)) = Ideal.logistic z := by
  rw [ofBits_one_f32]; rfl

end Cert.Lstm

end
-- ==== Proof.RefSide.lean ====
/-
  The reference program's two results, read one entry at a time, are the LSTM step of `LstmSpec`.

  The reference forms the gate pre-activation of row `b` at column `g` as
  `((Σ_k x[b,k]·Wi[g,k] + bi[g]) + Σ_k h[b,k]·Wh[g,k]) + bh[g]`: each product of the einsum contracts the feature axis of
  both operands, and each bias is laid out along the rows before it is added. That is `gatePre` by associativity and
  commutativity of addition (`gatePre_eq_interleaved`). The four column bands are cut out by slices at offsets 0, 1024,
  2048 and 3072, the sigmoid is written out as `1 / (1 + exp (−z))` with the exact constant one, and the rest is the
  cell update entry by entry.
-/
import proofs.«102361_j35510789603698_2_alg».proof.Proof.Gen.ReferenceIdeal.Read
import proofs.«102361_j35510789603698_2_alg».proof.Proof.LstmSpec

noncomputable section

open scoped BigOperators

namespace Cert.Lstm.Ref

open Cert.ReferenceIdeal Cert.ReferenceIdeal.Read Idealize.ShloMosaic Idealize.ShloMosaic.ValueIdx Cert.Lstm

/-- The reference's gate array at row `b`, column `g` is the pre-activation `gatePre` there. -/
theorem gate_eq (x0 x1 : FVec Ideal S8192x1024 .f32) (x3 x5 : FVec Ideal S4096x1024 .f32) (x4 x6 : FVec Ideal S4096 .f32)
    (b : Fin 8192) (g : Fin 4096) :
    val_main_v8 (F := Ideal) x0 x1 x3 x4 x5 x6 (ix2 b g) = gatePre x0 x1 x3 x5 x4 x6 b g := by
  rw [val_main_v8_apply, val_main_v5_apply, val_main_v3_apply, val_main_v0_apply, val_main_v4_apply,
    val_main_v2_apply, val_main_v1_apply, val_main_v7_apply, val_main_v6_apply]
  simp only [Ideal.addf_def]
  refine Eq.trans ?_ (gatePre_eq_interleaved x0 x1 x3 x5 x4 x6 b g)
  have el0 : ∀ k : Fin 1024, lidx_main_v0 (ix2 b g) k = ix2 b k := fun k =>
    funext fun a => by match a with | ⟨0, _⟩ => rfl | ⟨1, _⟩ => rfl
  have er0 : ∀ k : Fin 1024, ridx_main_v0 (ix2 b g) k = ix2 g k := fun k =>
    funext fun a => by match a with | ⟨0, _⟩ => rfl | ⟨1, _⟩ => rfl
  have el4 : ∀ k : Fin 1024, lidx_main_v4 (ix2 b g) k = ix2 b k := fun k =>
    funext fun a => by match a with | ⟨0, _⟩ => rfl | ⟨1, _⟩ => rfl
  have er4 : ∀ k : Fin 1024, ridx_main_v4 (ix2 b g) k = ix2 g k := fun k =>
    funext fun a => by match a with | ⟨0, _⟩ => rfl | ⟨1, _⟩ => rfl
  have eb4 : idx_main_v1 (idx_main_v2 (ix2 b g)) = ix1 g :=
    funext fun a => by match a with | ⟨0, _⟩ => rfl
  have eb6 : idx_main_v6 (idx_main_v7 (ix2 b g)) = ix1 g :=
    funext fun a => by match a with | ⟨0, _⟩ => rfl
  simp only [el0, er0, el4, er4, eb4, eb6]

/-- The reference's second result, the new cell state, entry by entry. -/
theorem cell_apply (x0 x1 x2 : FVec Ideal S8192x1024 .f32) (x3 x5 : FVec Ideal S4096x1024 .f32) (x4 x6 : FVec Ideal S4096 .f32)
    (b : Fin 8192) (j : Fin 1024) :
    val_main_v34 (F := Ideal) x0 x1 x2 x3 x4 x5 x6 (ix2 b j) = cellNext x0 x1 x2 x3 x5 x4 x6 b j := by
  have s9 : idx_main_v9 (ix2 b j) = ix2 b (⟨j.val, by have := j.isLt; omega⟩ : Fin 4096) :=
    funext fun a => by match a with | ⟨0, _⟩ => rfl | ⟨1, _⟩ => rfl
  have s10 : idx_main_v10 (ix2 b j) = ix2 b (⟨j.val + 1024, by have := j.isLt; omega⟩ : Fin 4096) :=
    funext fun a => by match a with | ⟨0, _⟩ => rfl | ⟨1, _⟩ => exact Fin.ext (Nat.add_comm 1024 j.val)
  have s11 : idx_main_v11 (ix2 b j) = ix2 b (⟨j.val + 2048, by have := j.isLt; omega⟩ : Fin 4096) :=
    funext fun a => by match a with | ⟨0, _⟩ => rfl | ⟨1, _⟩ => exact Fin.ext (Nat.add_comm 2048 j.val)
  simp only [val_main_v34_apply, val_main_v32_apply, val_main_v33_apply, val_main_v24_apply, val_main_v18_apply,
    val_main_v25_apply, val_main_v23_apply, val_main_v22_apply, val_main_v17_apply, val_main_v16_apply,
    val_main_v11_apply, val_main_cst_2_apply, val_main_v21_apply, val_main_v20_apply, val_main_cst_0_apply,
    val_main_v15_apply, val_main_v14_apply, val_main_cst_1_apply, val_main_v19_apply, val_main_cst_apply,
    val_main_v13_apply, val_main_v10_apply, val_main_v9_apply, s9, s10, s11, gate_eq,
    Ideal.addf_def, Ideal.mulf_def, Ideal.hostDivf_def, Ideal.hostUnary_exp_def, Ideal.hostUnary_tanh_def,
    Ideal.hostNegf_def, Ideal.negf_def, Ideal.ofBits_def, logistic_spelt]
  rfl

/-- The reference's first result, the new hidden state, entry by entry. -/
theorem hid_apply (x0 x1 x2 : FVec Ideal S8192x1024 .f32) (x3 x5 : FVec Ideal S4096x1024 .f32) (x4 x6 : FVec Ideal S4096 .f32)
    (b : Fin 8192) (j : Fin 1024) :
    val_main_v36 (F := Ideal) x0 x1 x2 x3 x4 x5 x6 (ix2 b j) = hidNext x0 x1 x2 x3 x5 x4 x6 b j := by
  have s12 : idx_main_v12 (ix2 b j) = ix2 b (⟨j.val + 3072, by have := j.isLt; omega⟩ : Fin 4096) :=
    funext fun a => by match a with | ⟨0, _⟩ => rfl | ⟨1, _⟩ => exact Fin.ext (Nat.add_comm 3072 j.val)
  simp only [val_main_v36_apply, val_main_v31_apply, val_main_v35_apply, val_main_v30_apply, val_main_cst_4_apply,
    val_main_v29_apply, val_main_v28_apply, val_main_cst_3_apply, val_main_v27_apply, val_main_v26_apply,
    val_main_v12_apply, s12, gate_eq, cell_apply,
    Ideal.addf_def, Ideal.mulf_def, Ideal.hostDivf_def, Ideal.hostUnary_exp_def, Ideal.hostUnary_tanh_def,
    Ideal.hostNegf_def, Ideal.negf_def, Ideal.ofBits_def, logistic_spelt]
  rfl

/-- The reference's new cell state is the array `cellArr` of its arguments. -/
theorem cell_eq (x0 x1 x2 : FVec Ideal S8192x1024 .f32) (x3 x5 : FVec Ideal S4096x1024 .f32) (x4 x6 : FVec Ideal S4096 .f32) :
    val_main_v34 (F := Ideal) x0 x1 x2 x3 x4 x5 x6 = cellArr x0 x1 x2 x3 x5 x4 x6 := by
  funext i
  obtain ⟨b, j, rfl⟩ : ∃ (b : Fin 8192) (j : Fin 1024), i = ix2 b j := ⟨i 0, i 1, eq_ix2 i⟩
  exact cell_apply x0 x1 x2 x3 x5 x4 x6 b j

/-- The reference's new hidden state is the array `hidArr` of its arguments. -/
theorem hid_eq (x0 x1 x2 : FVec Ideal S8192x1024 .f32) (x3 x5 : FVec Ideal S4096x1024 .f32) (x4 x6 : FVec Ideal S4096 .f32) :
    val_main_v36 (F := Ideal) x0 x1 x2 x3 x4 x5 x6 = hidArr x0 x1 x2 x3 x5 x4 x6 := by
  funext i
  obtain ⟨b, j, rfl⟩ : ∃ (b : Fin 8192) (j : Fin 1024), i = ix2 b j := ⟨i 0, i 1, eq_ix2 i⟩
  exact hid_apply x0 x1 x2 x3 x5 x4 x6 b j

end Cert.Lstm.Ref

end
-- ==== Proof.BlockReads.lean ====
/-
  What each input window's block holds at a grid point, in terms of the program's argument arrays.

  The grid has 32 points. At point `t` the three activation windows (input, hidden state, cell state) hold rows
  `256·t … 256·t + 255` of their arrays, which are arguments the run finds as launched. The other three windows always
  hold a whole array that the program computed before the kernel: each weight matrix transposed (and converted to a
  narrower float format, the identity on extended reals), so its entry `(k, g)` is the argument's entry `(g, k)`; and the
  two bias vectors added and viewed as one row, so its entry `(0, g)` is `bi[g] + bh[g]`.
-/
import proofs.«102361_j35510789603698_2_alg».proof.Proof.Gen.KernelIdeal.Frame
import Idealize.ShloMosaic.Lib.StableHlo.Run
import Idealize.ShloMosaic.Lib.Pipeline.Value
import Idealize.ShloMosaic.Lib.ValueIdx

noncomputable section

namespace Cert.Lstm.Ker

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The windows' block indices over the grid, decided at its 32 points: the activation and output windows are at block
    row `t`, the weights and the bias at their one block. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The array row that row `p` of point `t`'s block is. -/
def rowAt (t : Fin cfg0.N) (p : Fin 256) : Fin 8192 :=
  ⟨t.val * 256 + p.val, by
    have ht : t.val < 32 := lt_of_lt_of_eq t.isLt N_0
    have hp := p.isLt
    omega⟩

theorem rowAt_val (t : Fin cfg0.N) (p : Fin 256) : (rowAt t p).val = t.val * 256 + p.val := rfl

/-- The input block at point `t`: rows of the first argument. -/
theorem blk_x (c : Dev nD) (t : Fin cfg0.N) (p : Fin 256) (k : Fin 1024) :
    (iblk m c 0 t : Vec Ideal S256x1024 .f32) (ix2 p k)
      = (m ((c : Thread nD τ).loc main_arg0) : FVec Ideal S8192x1024 .f32) (ix2 (rowAt t p) k) := by
  obtain ⟨e0, e1, -⟩ := index_facts t
  show V m c main_arg0 (((cfg0.win 0).blk t).view.emb (ix2 p k)) = _
  rw [V_main_arg0]
  refine congrArg (m ((c : Thread nD τ).loc main_arg0) : S8192x1024.Idx → EReal) (funext fun a => Fin.ext ?_)
  match a with
  | ⟨0, _⟩ => show win0_0.index t (0 : Fin 2) * 256 + 1 * p.val = t.val * 256 + p.val; rw [e0]; omega
  | ⟨1, _⟩ => show win0_0.index t (1 : Fin 2) * 1024 + 1 * k.val = k.val; rw [e1]; omega

/-- The hidden-state block at point `t`: rows of the second argument. -/
theorem blk_h (c : Dev nD) (t : Fin cfg0.N) (p : Fin 256) (k : Fin 1024) :
    (iblk m c 1 t : Vec Ideal S256x1024 .f32) (ix2 p k)
      = (m ((c : Thread nD τ).loc main_arg1) : FVec Ideal S8192x1024 .f32) (ix2 (rowAt t p) k) := by
  obtain ⟨-, -, e0, e1, -⟩ := index_facts t
  show V m c main_arg1 (((cfg0.win 1).blk t).view.emb (ix2 p k)) = _
  rw [V_main_arg1]
  refine congrArg (m ((c : Thread nD τ).loc main_arg1) : S8192x1024.Idx → EReal) (funext fun a => Fin.ext ?_)
  match a with
  | ⟨0, _⟩ => show win0_1.index t (0 : Fin 2) * 256 + 1 * p.val = t.val * 256 + p.val; rw [e0]; omega
  | ⟨1, _⟩ => show win0_1.index t (1 : Fin 2) * 1024 + 1 * k.val = k.val; rw [e1]; omega

/-- The cell-state block at point `t`: rows of the third argument. -/
theorem blk_c (c : Dev nD) (t : Fin cfg0.N) (p : Fin 256) (k : Fin 1024) :
    (iblk m c 2 t : Vec Ideal S256x1024 .f32) (ix2 p k)
      = (m ((c : Thread nD τ).loc main_arg2) : FVec Ideal S8192x1024 .f32) (ix2 (rowAt t p) k) := by
  obtain ⟨-, -, -, -, e0, e1, -⟩ := index_facts t
  show V m c main_arg2 (((cfg0.win 2).blk t).view.emb (ix2 p k)) = _
  rw [V_main_arg2]
  refine congrArg (m ((c : Thread nD τ).loc main_arg2) : S8192x1024.Idx → EReal) (funext fun a => Fin.ext ?_)
  match a with
  | ⟨0, _⟩ => show win0_2.index t (0 : Fin 2) * 256 + 1 * p.val = t.val * 256 + p.val; rw [e0]; omega
  | ⟨1, _⟩ => show win0_2.index t (1 : Fin 2) * 1024 + 1 * k.val = k.val; rw [e1]; omega

/-- The first weight matrix as the kernel finds it: the fourth argument transposed. -/
theorem entry_wi (c : Dev nD) :
    (V m c main_v1 : FVec Ideal S1024x4096 .bf16)
      = truncf (F := Ideal) .bf16 (transpose S1024x4096 [1, 0] (m ((c : Thread nD τ).loc main_arg3) : FVec Ideal S4096x1024 .f32)
          transposes_S4096x1024_S1024x4096_1_0) bitsLt_bf16_f32 := by
  dsimp only [V, hostOps0]; after_results

/-- The second weight matrix as the kernel finds it: the sixth argument transposed. -/
theorem entry_wh (c : Dev nD) :
    (V m c main_v3 : FVec Ideal S1024x4096 .bf16)
      = truncf (F := Ideal) .bf16 (transpose S1024x4096 [1, 0] (m ((c : Thread nD τ).loc main_arg5) : FVec Ideal S4096x1024 .f32)
          transposes_S4096x1024_S1024x4096_1_0) bitsLt_bf16_f32 := by
  dsimp only [V, hostOps0]; after_results

/-- The bias row as the kernel finds it: the two bias arguments added, viewed as one row. -/
theorem entry_bias (c : Dev nD) :
    (V m c main_v5 : FVec Ideal S1x4096 .f32)
      = shapeCast S1x4096 (addf (F := Ideal) (s := S4096) (φ := .f32) (m ((c : Thread nD τ).loc main_arg4))
          (m ((c : Thread nD τ).loc main_arg6))) shapeCasts_S4096_S1x4096 := by
  dsimp only [V, hostOps0]; after_results; rfl

/-- A transposed weight matrix at `(k, g)` is the matrix at `(g, k)`. -/
theorem transposed_apply (W : FVec Ideal S4096x1024 .f32) (k : Fin 1024) (g : Fin 4096) :
    (truncf (F := Ideal) .bf16 (transpose S1024x4096 [1, 0] W transposes_S4096x1024_S1024x4096_1_0) bitsLt_bf16_f32 : FVec Ideal S1024x4096 .bf16)
      (ix2 k g) = W (ix2 g k) :=
  transpose_apply [1, 0] W transposes_S4096x1024_S1024x4096_1_0 (ix2 k g) (ix2 g k)
    (fun b => match b with | ⟨0, _⟩ => rfl | ⟨1, _⟩ => rfl)

/-- The first weight window's block at any point: the whole transposed matrix. -/
theorem blk_wi (c : Dev nD) (t : Fin cfg0.N) (k : Fin 1024) (g : Fin 4096) :
    (iblk m c 3 t : Vec Ideal S1024x4096 .bf16) (ix2 k g)
      = (m ((c : Thread nD τ).loc main_arg3) : FVec Ideal S4096x1024 .f32) (ix2 g k) := by
  obtain ⟨-, -, -, -, -, -, e0, e1, -⟩ := index_facts t
  have he : ((cfg0.win 3).blk t).view.emb (ix2 k g) = (ix2 k g : S1024x4096.Idx) :=
    funext fun a => Fin.ext (by
      match a with
      | ⟨0, _⟩ => show win0_3.index t (0 : Fin 2) * 1024 + 1 * k.val = k.val; rw [e0]; omega
      | ⟨1, _⟩ => show win0_3.index t (1 : Fin 2) * 4096 + 1 * g.val = g.val; rw [e1]; omega)
  show V m c main_v1 (((cfg0.win 3).blk t).view.emb (ix2 k g)) = _
  rw [he, entry_wi]
  exact transposed_apply _ k g

/-- The second weight window's block at any point: the whole transposed matrix. -/
theorem blk_wh (c : Dev nD) (t : Fin cfg0.N) (k : Fin 1024) (g : Fin 4096) :
    (iblk m c 4 t : Vec Ideal S1024x4096 .bf16) (ix2 k g)
      = (m ((c : Thread nD τ).loc main_arg5) : FVec Ideal S4096x1024 .f32) (ix2 g k) := by
  obtain ⟨-, -, -, -, -, -, -, -, e0, e1, -⟩ := index_facts t
  have he : ((cfg0.win 4).blk t).view.emb (ix2 k g) = (ix2 k g : S1024x4096.Idx) :=
    funext fun a => Fin.ext (by
      match a with
      | ⟨0, _⟩ => show win0_4.index t (0 : Fin 2) * 1024 + 1 * k.val = k.val; rw [e0]; omega
      | ⟨1, _⟩ => show win0_4.index t (1 : Fin 2) * 4096 + 1 * g.val = g.val; rw [e1]; omega)
  show V m c main_v3 (((cfg0.win 4).blk t).view.emb (ix2 k g)) = _
  rw [he, entry_wh]
  exact transposed_apply _ k g

/-- The bias window's block at any point: entry `g` of the row is entry `g` of the two biases added. -/
theorem blk_bias (c : Dev nD) (t : Fin cfg0.N) (g : Fin 4096) :
    (iblk m c 5 t : Vec Ideal S1x4096 .f32) (ix2 (0 : Fin 1) g)
      = addf (F := Ideal) (s := S4096) (φ := .f32) (m ((c : Thread nD τ).loc main_arg4))
          (m ((c : Thread nD τ).loc main_arg6)) (ix1 g) := by
  obtain ⟨-, -, -, -, -, -, -, -, -, -, e0, e1, -⟩ := index_facts t
  have he : ((cfg0.win 5).blk t).view.emb (ix2 (0 : Fin 1) g) = (ix2 (0 : Fin 1) g : S1x4096.Idx) :=
    funext fun a => Fin.ext (by
      match a with
      | ⟨0, _⟩ => show win0_5.index t (0 : Fin 2) * 1 + 1 * 0 = 0; rw [e0]
      | ⟨1, _⟩ => show win0_5.index t (1 : Fin 2) * 4096 + 1 * g.val = g.val; rw [e1]; omega)
  show V m c main_v5 (((cfg0.win 5).blk t).view.emb (ix2 (0 : Fin 1) g)) = _
  rw [he, entry_bias]
  refine shapeCast_apply _ shapeCasts_S4096_S1x4096 (ix2 (0 : Fin 1) g) (ix1 g) ?_
  rw [Shape.rowMajor_val_one, Shape.rowMajor_val_two]
  show g.val = 0 * 4096 + g.val
  omega

end Cert.Lstm.Ker

end
-- ==== Proof.GatePayload.lean ====
/-
  The kernel body's gate pre-activation, read at one entry of a block.

  At a grid point the body holds a block of 256 rows of the input and of the hidden state (each [256, 1024]), the two
  weight matrices already transposed ([1024, 4096]: row `k`, column `g`) and the two biases already added and laid out
  as one row ([1, 4096]). It multiplies each activation block by its weight matrix, adds the two products and then the
  bias row repeated down the 256 rows. Over the extended reals the conversions to a narrower float format are the
  identity and a matrix product into a zero accumulator is the plain sum over the contracted axis, so at row `p`,
  column `q` the value is

      (Σ_k X[p,k] · Wi'[k,q]  +  Σ_k H[p,k] · Wh'[k,q])  +  brow[0,q].
-/
import proofs.«102361_j35510789603698_2_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.Lstm.Ker

open Cert.KernelIdeal Cert.KernelIdeal.Gen Idealize.ShloMosaic Idealize.ShloMosaic.ValueIdx

/-! ## The matrix product's operand indices: rows of the left operand, columns of the right, the contracted axis
between them -/

theorem lhs_row (j : S256x4096.Idx) (q : dot_S256x1024_S1024x4096_S256x4096_1_0_0_1_n_n.contr.Idx) :
    (dot_S256x1024_S1024x4096_S256x4096_1_0_0_1_n_n.lhsIdx j q 0).val = (j 0).val := by
  unfold DotDims.lhsIdx
  rw [dif_neg (show ¬(0 : Fin S256x1024.rank) ∈ dot_S256x1024_S1024x4096_S256x4096_1_0_0_1_n_n.lhsBatch by decide),
    dif_pos (show (0 : Fin S256x1024.rank) ∈ dot_S256x1024_S1024x4096_S256x4096_1_0_0_1_n_n.lhsNonContracting by decide)]
  rfl

theorem lhs_contr (j : S256x4096.Idx) (q : dot_S256x1024_S1024x4096_S256x4096_1_0_0_1_n_n.contr.Idx) :
    (dot_S256x1024_S1024x4096_S256x4096_1_0_0_1_n_n.lhsIdx j q 1).val = (q ⟨0, by decide⟩).val :=
  dot_S256x1024_S1024x4096_S256x4096_1_0_0_1_n_n.lhsIdx_val_of_single rfl j q

theorem rhs_contr (j : S256x4096.Idx) (q : dot_S256x1024_S1024x4096_S256x4096_1_0_0_1_n_n.contr.Idx) :
    (dot_S256x1024_S1024x4096_S256x4096_1_0_0_1_n_n.rhsIdx j q 0).val = (q ⟨0, by decide⟩).val :=
  dot_S256x1024_S1024x4096_S256x4096_1_0_0_1_n_n.rhsIdx_val_of_single rfl j q

theorem rhs_col (j : S256x4096.Idx) (q : dot_S256x1024_S1024x4096_S256x4096_1_0_0_1_n_n.contr.Idx) :
    (dot_S256x1024_S1024x4096_S256x4096_1_0_0_1_n_n.rhsIdx j q 1).val = (j 1).val := by
  unfold DotDims.rhsIdx
  rw [dif_neg (show ¬(1 : Fin S1024x4096.rank) ∈ dot_S256x1024_S1024x4096_S256x4096_1_0_0_1_n_n.rhsBatch by decide),
    dif_pos (show (1 : Fin S1024x4096.rank) ∈ dot_S256x1024_S1024x4096_S256x4096_1_0_0_1_n_n.rhsNonContracting by decide)]
  rfl

/-- A [256, 1024] by [1024, 4096] product into a zero accumulator, at row `p` and column `q`: the sum over the
    1024 contracted positions of the products of the two entries. -/
theorem product_apply (A : FVec Ideal S256x1024 .bf16) (B : FVec Ideal S1024x4096 .bf16) (p : Fin 256) (q : Fin 4096) :
    matmul dot_S256x1024_S1024x4096_S256x4096_1_0_0_1_n_n none A B (constant (F := Ideal) S256x4096 .f32 0x00000000#32) (ix2 p q)
      = ∑ k : Fin 1024, A (ix2 p k) * B (ix2 k q) := by
  simp only [matmul]
  rw [Ideal.matmul_constant_zero_apply,
    ← Equiv.sum_comp (contrEquiv1 dot_S256x1024_S1024x4096_S256x4096_1_0_0_1_n_n 1024 rfl rfl).symm]
  refine Finset.sum_congr rfl fun k _ => ?_
  have hk := contrEquiv1_symm_val dot_S256x1024_S1024x4096_S256x4096_1_0_0_1_n_n 1024 rfl rfl k
  have el : dot_S256x1024_S1024x4096_S256x4096_1_0_0_1_n_n.lhsIdx (ix2 p q) ((contrEquiv1 dot_S256x1024_S1024x4096_S256x4096_1_0_0_1_n_n 1024 rfl rfl).symm k) = ix2 p k :=
    funext fun a => Fin.ext (by
      match a with
      | ⟨0, _⟩ => exact lhs_row _ _
      | ⟨1, _⟩ => exact (lhs_contr _ _).trans hk)
  have er : dot_S256x1024_S1024x4096_S256x4096_1_0_0_1_n_n.rhsIdx (ix2 p q) ((contrEquiv1 dot_S256x1024_S1024x4096_S256x4096_1_0_0_1_n_n 1024 rfl rfl).symm k) = ix2 k q :=
    funext fun a => Fin.ext (by
      match a with
      | ⟨0, _⟩ => exact (rhs_contr _ _).trans hk
      | ⟨1, _⟩ => exact rhs_col _ _)
  rw [el, er]

/-- The bias row repeated down the rows, at row `p` and column `q`: the row's entry `q`. -/
theorem bias_rows_apply (r : FVec Ideal S1x4096 .f32) (p : Fin 256) (q : Fin 4096) :
    broadcastTo S256x4096 r broadcasts_S1x4096_S256x4096 (ix2 p q) = r (ix2 (0 : Fin 1) q) :=
  broadcastTo_apply r broadcasts_S1x4096_S256x4096 (ix2 p q) (ix2 (0 : Fin 1) q) (fun a => match a with
    | ⟨0, _⟩ => by show 0 = if (1 : Nat) = 1 then 0 else p.val; rw [if_pos rfl]
    | ⟨1, _⟩ => by show q.val = if (4096 : Nat) = 1 then 0 else q.val; rw [if_neg (by decide)])

/-- The body's gate pre-activation at row `p`, column `q` of the block, over the extended reals. -/
theorem gate_payload (X H : Vec Ideal S256x1024 .f32) (Wi' Wh' : Vec Ideal S1024x4096 .bf16) (brow : Vec Ideal S1x4096 .f32)
    (p : Fin 256) (q : Fin 4096) :
    k0_pay1 (F := Ideal) X H Wi' Wh' brow (ix2 p q)
      = ((∑ k : Fin 1024, X (ix2 p k) * Wi' (ix2 k q)) + (∑ k : Fin 1024, H (ix2 p k) * Wh' (ix2 k q)))
        + brow (ix2 (0 : Fin 1) q) := by
  unfold k0_pay1
  simp only [shapeCast_self]
  rw [addf_apply, addf_apply, product_apply, product_apply, bias_rows_apply]
  rfl

end Cert.Lstm.Ker

end
-- ==== Proof.PointValue.lean ====
/-
  What one grid point leaves in its two output blocks, entry by entry, in terms of the whole argument arrays.

  Stated over variables only. A point holds six blocks: 256 rows `X`, `H`, `C` of the input, the hidden state and the
  cell state; the two weight matrices transposed, `Wi'` and `Wh'`; and the summed bias as one row `brow`. Suppose row
  `p` of each activation block is row `r p` of its array (`hX`, `hH`, `hC`), the transposed weights hold `W[g,k]` at
  `(k, g)` (`hWi`, `hWh`), and the bias row holds `bi[g] + bh[g]` (`hb`). Then the body's gate pre-activation at
  `(p, q)` is `gatePre` at `(r p, q)` — the same sums with the factors read from the arrays — and the two stored blocks
  at `(p, j)` are `cellNext` and `hidNext` at `(r p, j)`: the four gates are the pre-activation's column bands at
  offsets 0, 1024, 2048 and 3072.
-/
import proofs.«102361_j35510789603698_2_alg».proof.Proof.Gen.KernelIdeal.Value
import proofs.«102361_j35510789603698_2_alg».proof.Proof.GatePayload
import proofs.«102361_j35510789603698_2_alg».proof.Proof.LstmSpec

noncomputable section

open scoped BigOperators

namespace Cert.Lstm.Ker

open Cert.KernelIdeal Cert.KernelIdeal.Gen Idealize.ShloMosaic Idealize.ShloMosaic.ValueIdx Cert.Lstm

section
variable (x h cc : FVec Ideal Act .f32) (Wi Wh : FVec Ideal Wt .f32) (bi bh : FVec Ideal Bias .f32)
  (X H C : Vec Ideal S256x1024 .f32) (Wi' Wh' : Vec Ideal S1024x4096 .bf16) (brow : Vec Ideal S1x4096 .f32)
  (r : Fin 256 → Fin 8192)
  (hX : ∀ (p : Fin 256) (k : Fin 1024), X (ix2 p k) = x (ix2 (r p) k))
  (hH : ∀ (p : Fin 256) (k : Fin 1024), H (ix2 p k) = h (ix2 (r p) k))
  (hC : ∀ (p : Fin 256) (k : Fin 1024), C (ix2 p k) = cc (ix2 (r p) k))
  (hWi : ∀ (k : Fin 1024) (g : Fin 4096), Wi' (ix2 k g) = Wi (ix2 g k))
  (hWh : ∀ (k : Fin 1024) (g : Fin 4096), Wh' (ix2 k g) = Wh (ix2 g k))
  (hb : ∀ g : Fin 4096, brow (ix2 (0 : Fin 1) g) = bi (ix1 g) + bh (ix1 g))

include hX hH hWi hWh hb in
/-- The body's gate pre-activation at row `p`, column `q` of the block is the pre-activation of row `r p`. -/
theorem gate_point (p : Fin 256) (q : Fin 4096) :
    k0_pay1 (F := Ideal) X H Wi' Wh' brow (ix2 p q) = gatePre x h Wi Wh bi bh (r p) q := by
  rw [gate_payload]
  unfold gatePre
  simp only [hX, hH, hWi, hWh, hb]

include hX hH hC hWi hWh hb in
/-- The block stored as the new cell state, at row `p`, unit `j`. -/
theorem cell_point (p : Fin 256) (j : Fin 1024) :
    Value.E7 (F := Ideal) X H Wi' Wh' brow C (ix2 p j) = cellNext x h cc Wi Wh bi bh (r p) j := by
  have i0 : Value.ix7_0 (ix2 p j) = ix2 p (⟨j.val + 1024, by have := j.isLt; omega⟩ : Fin 4096) :=
    funext fun a => by match a with | ⟨0, _⟩ => rfl | ⟨1, _⟩ => rfl
  have i1 : Value.ix7_1 (ix2 p j) = ix2 p j :=
    funext fun a => by match a with | ⟨0, _⟩ => rfl | ⟨1, _⟩ => rfl
  have i2 : Value.ix7_2 (ix2 p j) = ix2 p (⟨j.val, by have := j.isLt; omega⟩ : Fin 4096) :=
    funext fun a => by match a with | ⟨0, _⟩ => rfl | ⟨1, _⟩ => rfl
  have i3 : Value.ix7_3 (ix2 p j) = ix2 p (⟨j.val + 2048, by have := j.isLt; omega⟩ : Fin 4096) :=
    funext fun a => by match a with | ⟨0, _⟩ => rfl | ⟨1, _⟩ => rfl
  show FloatOps.addf (FloatOps.mulf (FloatOps.logistic (k0_pay1 X H Wi' Wh' brow (Value.ix7_0 (ix2 p j)))) (C (Value.ix7_1 (ix2 p j))))
      (FloatOps.mulf (FloatOps.logistic (k0_pay1 X H Wi' Wh' brow (Value.ix7_2 (ix2 p j))))
        (FloatOps.tanh (k0_pay1 X H Wi' Wh' brow (Value.ix7_3 (ix2 p j))))) = _
  rw [i0, i1, i2, i3, gate_point x h Wi Wh bi bh X H Wi' Wh' brow r hX hH hWi hWh hb,
    gate_point x h Wi Wh bi bh X H Wi' Wh' brow r hX hH hWi hWh hb,
    gate_point x h Wi Wh bi bh X H Wi' Wh' brow r hX hH hWi hWh hb, hC]
  rfl

include hX hH hC hWi hWh hb in
/-- The block stored as the new hidden state, at row `p`, unit `j`. -/
theorem hid_point (p : Fin 256) (j : Fin 1024) :
    Value.E6 (F := Ideal) X H Wi' Wh' brow C (ix2 p j) = hidNext x h cc Wi Wh bi bh (r p) j := by
  have i0 : Value.ix6_0 (ix2 p j) = ix2 p (⟨j.val + 3072, by have := j.isLt; omega⟩ : Fin 4096) :=
    funext fun a => by match a with | ⟨0, _⟩ => rfl | ⟨1, _⟩ => rfl
  have i1 : Value.ix6_1 (ix2 p j) = ix2 p (⟨j.val + 1024, by have := j.isLt; omega⟩ : Fin 4096) :=
    funext fun a => by match a with | ⟨0, _⟩ => rfl | ⟨1, _⟩ => rfl
  have i2 : Value.ix6_2 (ix2 p j) = ix2 p j :=
    funext fun a => by match a with | ⟨0, _⟩ => rfl | ⟨1, _⟩ => rfl
  have i3 : Value.ix6_3 (ix2 p j) = ix2 p (⟨j.val, by have := j.isLt; omega⟩ : Fin 4096) :=
    funext fun a => by match a with | ⟨0, _⟩ => rfl | ⟨1, _⟩ => rfl
  have i4 : Value.ix6_4 (ix2 p j) = ix2 p (⟨j.val + 2048, by have := j.isLt; omega⟩ : Fin 4096) :=
    funext fun a => by match a with | ⟨0, _⟩ => rfl | ⟨1, _⟩ => rfl
  show FloatOps.mulf (FloatOps.logistic (k0_pay1 X H Wi' Wh' brow (Value.ix6_0 (ix2 p j))))
      (FloatOps.tanh (FloatOps.addf
        (FloatOps.mulf (FloatOps.logistic (k0_pay1 X H Wi' Wh' brow (Value.ix6_1 (ix2 p j)))) (C (Value.ix6_2 (ix2 p j))))
        (FloatOps.mulf (FloatOps.logistic (k0_pay1 X H Wi' Wh' brow (Value.ix6_3 (ix2 p j))))
          (FloatOps.tanh (k0_pay1 X H Wi' Wh' brow (Value.ix6_4 (ix2 p j))))))) = _
  rw [i0, i1, i2, i3, i4, gate_point x h Wi Wh bi bh X H Wi' Wh' brow r hX hH hWi hWh hb,
    gate_point x h Wi Wh bi bh X H Wi' Wh' brow r hX hH hWi hWh hb,
    gate_point x h Wi Wh bi bh X H Wi' Wh' brow r hX hH hWi hWh hb,
    gate_point x h Wi Wh bi bh X H Wi' Wh' brow r hX hH hWi hWh hb, hC]
  rfl

end

end Cert.Lstm.Ker

end
-- ==== Proof.KernelValue.lean ====
/-
  From the blocks to the whole arrays: after the kernel's run its two results hold the LSTM step of the arguments.

  At grid point `t` the body's two stored blocks are, entry by entry, the new hidden state and the new cell state of
  rows `256·t … 256·t + 255` (the per-point lemmas applied to the blocks the point holds), and that is what the point
  writes back. The 32 points' blocks are the 32 bands of 256 rows, so every index of a result lies in the block of
  point `row / 256`, and each result ends holding the whole array.
-/
import proofs.«102361_j35510789603698_2_alg».proof.Proof.Gen.KernelIdeal.Value
import proofs.«102361_j35510789603698_2_alg».proof.Proof.BlockReads
import proofs.«102361_j35510789603698_2_alg».proof.Proof.PointValue
import proofs.«102361_j35510789603698_2_alg».proof.Proof.LstmSpec

noncomputable section

namespace Cert.Lstm.Ker

open Cert.KernelIdeal Cert.KernelIdeal.Gen Idealize.ShloMosaic Idealize.ShloMosaic.TcCoe Idealize.SL.Sem
open Idealize.ShloMosaic.ValueIdx Cert.Lstm
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The new hidden state of the arguments as launched on core `c`. -/
def hidOf (c : Dev nD) : FVec Ideal Act .f32 := hidArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))

/-- The new cell state of the arguments as launched on core `c`. -/
def cellOf (c : Dev nD) : FVec Ideal Act .f32 := cellArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))

/-- What point `t` writes back to the first result: rows `256·t … 256·t + 255` of `hidOf`. -/
theorem flushed6_eq (c : Dev nD) (t : Fin cfg0.N) :
    (dats m 0 c).flushed 6 t = ((cfg0.win 6).blk t).view.read (Elt Ideal) (hidOf m c) := by
  obtain ⟨-, -, -, -, -, -, -, -, -, -, -, -, e0, e1, -⟩ := index_facts t
  rw [Value.flushed6]
  unfold out0_6
  simp only [View.ld_unit_zero (S := S256x1024) hz, View.ld_unit_zero (S := S1024x4096) hz,
    View.ld_unit_zero (S := S1x4096) hz]
  refine funext fun (y : S256x1024.Idx) => ?_
  obtain ⟨p, j, rfl⟩ : ∃ (p : Fin 256) (j : Fin 1024), y = ix2 p j := ⟨y 0, y 1, eq_ix2 y⟩
  show View.canon ([⟨r0_0, k0_pay3 (F := Ideal) (iblk m c 0 t) (iblk m c 1 t) (iblk m c 3 t) (iblk m c 4 t) (iblk m c 5 t) (iblk m c 2 t)⟩] :
        List (View.Piece (Elt Ideal) S256x1024 .f32)) (ix2 p j)
      = hidOf m c (((cfg0.win 6).blk t).view.emb (ix2 p j))
  have he : ((cfg0.win 6).blk t).view.emb (ix2 p j) = (ix2 (rowAt t p) j : S8192x1024.Idx) :=
    funext fun a => Fin.ext (by
      match a with
      | ⟨0, _⟩ => show win0_6.index t (0 : Fin 2) * 256 + 1 * p.val = t.val * 256 + p.val; rw [e0]; omega
      | ⟨1, _⟩ => show win0_6.index t (1 : Fin 2) * 1024 + 1 * j.val = j.val; rw [e1]; omega)
  rw [he]
  refine (Value.canon6_eq _ _ _ _ _ _ _).trans ?_
  exact hid_point (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))
    (iblk m c 0 t) (iblk m c 1 t) (iblk m c 2 t) (iblk m c 3 t) (iblk m c 4 t) (iblk m c 5 t) (rowAt t)
    (blk_x m c t) (blk_h m c t) (blk_c m c t) (blk_wi m c t) (blk_wh m c t) (blk_bias m c t) p j

/-- An array index lies in point `t`'s block of that result iff each coordinate lies in the block's range. -/
theorem mem_blk6 (t : Fin cfg0.N) (i : S8192x1024.Idx) :
    i ∈ ((cfg0.win 6).blk t).view.set ↔ ∀ a : Fin 2, win0_6.index t a * S256x1024.size a ≤ (i a).val
      ∧ (i a).val < win0_6.index t a * S256x1024.size a + S256x1024.size a := by
  show i ∈ ((View.whole main_v6_0).slice (win0_6.rect t)).set ↔ _
  rw [View.set_slice_whole, Rect.mem_set_unit]
  exact Iff.rfl

/-- Every index of that result is in the block of the point its row falls under: row `b` is in block `b / 256`. -/
theorem covered6 (i : S8192x1024.Idx) :
    ∃ t : Fin cfg0.N, (cfg0.win 6).flush t = true ∧ i ∈ ((cfg0.win 6).blk t).view.set := by
  have hi0 : (i 0).val < 8192 := (i 0).isLt
  have hi1 : (i 1).val < 1024 := (i 1).isLt
  have hN : cfg0.N = 32 := N_0
  have hlt : (i 0).val / 256 < cfg0.N := by rw [hN]; omega
  obtain ⟨-, -, -, -, -, -, -, -, -, -, -, -, e0, e1, -⟩ := index_facts ⟨(i 0).val / 256, hlt⟩
  refine ⟨⟨(i 0).val / 256, hlt⟩, flush0_6 _, ?_⟩
  rw [mem_blk6]
  intro a
  match a with
  | ⟨0, _⟩ =>
    show win0_6.index ⟨(i 0).val / 256, hlt⟩ (0 : Fin 2) * 256 ≤ (i 0).val
      ∧ (i 0).val < win0_6.index ⟨(i 0).val / 256, hlt⟩ (0 : Fin 2) * 256 + 256
    rw [e0]
    show (i 0).val / 256 * 256 ≤ (i 0).val ∧ (i 0).val < (i 0).val / 256 * 256 + 256
    omega
  | ⟨1, _⟩ =>
    show win0_6.index ⟨(i 0).val / 256, hlt⟩ (1 : Fin 2) * 1024 ≤ (i 1).val
      ∧ (i 1).val < win0_6.index ⟨(i 0).val / 256, hlt⟩ (1 : Fin 2) * 1024 + 1024
    rw [e1]
    omega

/-- So that result ends holding `hidOf`. -/
theorem final6 (c : Dev nD) : (dats m 0 c).arrAt 6 cfg0.N = hidOf m c :=
  (dats m 0 c).arrAt_eq_of_cover 6 (hidOf m c) (fun t _ => flushed6_eq m c t) covered6

/-- What point `t` writes back to the second result: rows `256·t … 256·t + 255` of `cellOf`. -/
theorem flushed7_eq (c : Dev nD) (t : Fin cfg0.N) :
    (dats m 0 c).flushed 7 t = ((cfg0.win 7).blk t).view.read (Elt Ideal) (cellOf m c) := by
  obtain ⟨-, -, -, -, -, -, -, -, -, -, -, -, -, -, e0, e1⟩ := index_facts t
  rw [Value.flushed7]
  unfold out0_7
  simp only [View.ld_unit_zero (S := S256x1024) hz, View.ld_unit_zero (S := S1024x4096) hz,
    View.ld_unit_zero (S := S1x4096) hz]
  refine funext fun (y : S256x1024.Idx) => ?_
  obtain ⟨p, j, rfl⟩ : ∃ (p : Fin 256) (j : Fin 1024), y = ix2 p j := ⟨y 0, y 1, eq_ix2 y⟩
  show View.canon ([⟨r0_0, k0_pay2 (F := Ideal) (iblk m c 0 t) (iblk m c 1 t) (iblk m c 3 t) (iblk m c 4 t) (iblk m c 5 t) (iblk m c 2 t)⟩] :
        List (View.Piece (Elt Ideal) S256x1024 .f32)) (ix2 p j)
      = cellOf m c (((cfg0.win 7).blk t).view.emb (ix2 p j))
  have he : ((cfg0.win 7).blk t).view.emb (ix2 p j) = (ix2 (rowAt t p) j : S8192x1024.Idx) :=
    funext fun a => Fin.ext (by
      match a with
      | ⟨0, _⟩ => show win0_7.index t (0 : Fin 2) * 256 + 1 * p.val = t.val * 256 + p.val; rw [e0]; omega
      | ⟨1, _⟩ => show win0_7.index t (1 : Fin 2) * 1024 + 1 * j.val = j.val; rw [e1]; omega)
  rw [he]
  refine (Value.canon7_eq _ _ _ _ _ _ _).trans ?_
  exact cell_point (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))
    (iblk m c 0 t) (iblk m c 1 t) (iblk m c 2 t) (iblk m c 3 t) (iblk m c 4 t) (iblk m c 5 t) (rowAt t)
    (blk_x m c t) (blk_h m c t) (blk_c m c t) (blk_wi m c t) (blk_wh m c t) (blk_bias m c t) p j

/-- An array index lies in point `t`'s block of that result iff each coordinate lies in the block's range. -/
theorem mem_blk7 (t : Fin cfg0.N) (i : S8192x1024.Idx) :
    i ∈ ((cfg0.win 7).blk t).view.set ↔ ∀ a : Fin 2, win0_7.index t a * S256x1024.size a ≤ (i a).val
      ∧ (i a).val < win0_7.index t a * S256x1024.size a + S256x1024.size a := by
  show i ∈ ((View.whole main_v6_1).slice (win0_7.rect t)).set ↔ _
  rw [View.set_slice_whole, Rect.mem_set_unit]
  exact Iff.rfl

/-- Every index of that result is in the block of the point its row falls under: row `b` is in block `b / 256`. -/
theorem covered7 (i : S8192x1024.Idx) :
    ∃ t : Fin cfg0.N, (cfg0.win 7).flush t = true ∧ i ∈ ((cfg0.win 7).blk t).view.set := by
  have hi0 : (i 0).val < 8192 := (i 0).isLt
  have hi1 : (i 1).val < 1024 := (i 1).isLt
  have hN : cfg0.N = 32 := N_0
  have hlt : (i 0).val / 256 < cfg0.N := by rw [hN]; omega
  obtain ⟨-, -, -, -, -, -, -, -, -, -, -, -, -, -, e0, e1⟩ := index_facts ⟨(i 0).val / 256, hlt⟩
  refine ⟨⟨(i 0).val / 256, hlt⟩, flush0_7 _, ?_⟩
  rw [mem_blk7]
  intro a
  match a with
  | ⟨0, _⟩ =>
    show win0_7.index ⟨(i 0).val / 256, hlt⟩ (0 : Fin 2) * 256 ≤ (i 0).val
      ∧ (i 0).val < win0_7.index ⟨(i 0).val / 256, hlt⟩ (0 : Fin 2) * 256 + 256
    rw [e0]
    show (i 0).val / 256 * 256 ≤ (i 0).val ∧ (i 0).val < (i 0).val / 256 * 256 + 256
    omega
  | ⟨1, _⟩ =>
    show win0_7.index ⟨(i 0).val / 256, hlt⟩ (1 : Fin 2) * 1024 ≤ (i 1).val
      ∧ (i 1).val < win0_7.index ⟨(i 0).val / 256, hlt⟩ (1 : Fin 2) * 1024 + 1024
    rw [e1]
    omega

/-- So that result ends holding `cellOf`. -/
theorem final7 (c : Dev nD) : (dats m 0 c).arrAt 7 cfg0.N = cellOf m c :=
  (dats m 0 c).arrAt_eq_of_cover 7 (cellOf m c) (fun t _ => flushed7_eq m c t) covered7

/-- The kernel's run: every weakly fair execution ends with the two results at the new hidden and cell states of the
    arguments, and the arguments unchanged. -/
theorem run : θ_run defs (onTc (τ := τ) (main (F := Ideal))) ⟨m, fun _ => 0, ρ⟩ fun r => ∀ c : Dev nD,
      r.2.mem ((c : Thread nD τ).loc main_v6_0) = hidOf m c
      ∧ r.2.mem ((c : Thread nD τ).loc main_v6_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final6 m c), (h c).2.1.trans (final7 m c), (h c).2.2⟩)
    (Value.run_blocks m ρ)

end Cert.Lstm.Ker

end
-- ==== Proof.lean ====
/-
  One step of an LSTM cell: a blocked kernel against its plain formulation, equal over the extended reals.

  Both programs take a batch of 8192 rows `x` (1024 features), the previous hidden and cell states `h`, `c` (1024 units),
  two weight matrices `Wi`, `Wh` (4096 gate columns by 1024) and two biases `bi`, `bh`, and return the new hidden and
  cell states. With `pre[b,g] = Σ_k x[b,k]·Wi[g,k] + Σ_k h[b,k]·Wh[g,k] + bi[g] + bh[g]` and the four gates the column
  bands of `pre` at offsets 0 (input), 1024 (forget), 2048 (candidate) and 3072 (output),

      c'[b,j] = σ(pre[b,j+1024])·c[b,j] + σ(pre[b,j])·tanh(pre[b,j+2048]),     h'[b,j] = σ(pre[b,j+3072])·tanh(c'[b,j]).

  The kernel transposes the weights and adds the two biases first, walks the batch in 32 bands of 256 rows, and in each
  band forms `(x·Wi' + h·Wh') + (bi + bh)`; the reference forms `((x·Wi + bi) + h·Wh) + bh` on the whole batch. The two
  differ in the grouping of a four-term sum, which is associativity and commutativity of addition and holds for all
  extended reals; in the order of the rows, which the bands tile; in the kernel's passage through a narrower float
  format, which is the identity on extended reals; and in the sigmoid, which the kernel applies as one operation and
  the reference spells as `1 / (1 + exp (−z))` with the exact constant one — one function. So the equality needs
  nothing of the inputs, and the precondition is not opened.

  The kernel's frame, what each grid point writes back as a function of the blocks it holds, and the reference's run
  with its entries read one operation at a time are imported from the generated modules. Written by hand: the step as
  functions on extended reals (`LstmSpec`), the reference's entries as those functions (`RefSide`), the kernel body's
  gate sums at an entry of a block (`GatePayload`, `PointValue`), the blocks as rows of the arguments (`BlockReads`),
  the whole result arrays from the blocks (`KernelValue`), and the five claims below.
-/
import proofs.«102361_j35510789603698_2_alg».proof.Defs
import proofs.«102361_j35510789603698_2_alg».proof.Proof.Gen.Kernel
import proofs.«102361_j35510789603698_2_alg».proof.Proof.Gen.Kernel.Skeleton
import proofs.«102361_j35510789603698_2_alg».proof.Proof.Gen.Kernel.Launch
import proofs.«102361_j35510789603698_2_alg».proof.Proof.Gen.Kernel.Points
import proofs.«102361_j35510789603698_2_alg».proof.Proof.Gen.Kernel.Frame
import proofs.«102361_j35510789603698_2_alg».proof.Proof.Gen.KernelIdeal
import proofs.«102361_j35510789603698_2_alg».proof.Proof.Gen.KernelIdeal.Skeleton
import proofs.«102361_j35510789603698_2_alg».proof.Proof.Gen.KernelIdeal.Launch
import proofs.«102361_j35510789603698_2_alg».proof.Proof.Gen.KernelIdeal.Points
import proofs.«102361_j35510789603698_2_alg».proof.Proof.Gen.KernelIdeal.Frame
import proofs.«102361_j35510789603698_2_alg».proof.Proof.Gen.KernelIdeal.Value
import proofs.«102361_j35510789603698_2_alg».proof.Proof.Gen.ReferenceIdeal
import proofs.«102361_j35510789603698_2_alg».proof.Proof.Gen.ReferenceIdeal.Run
import proofs.«102361_j35510789603698_2_alg».proof.Proof.Gen.ReferenceIdeal.Read
import proofs.«102361_j35510789603698_2_alg».proof.Proof.Gen.Pre_finite_inputs
import proofs.«102361_j35510789603698_2_alg».proof.Proof.RefSide
import proofs.«102361_j35510789603698_2_alg».proof.Proof.KernelValue
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the two results dropped. -/
theorem frame_reference : Cert.frame_ReferenceIdeal := fun m ρ _ =>
  (θ_run Cert.ReferenceIdeal.defs _ _).mono (fun _ h c => (h c).2.2)
    (Cert.ReferenceIdeal.Value.run (F := Ideal) m ρ)

/-- From memories that agree on the seven arguments, the kernel ends with its two results at the new hidden and cell
    states of its arguments, the reference with its two results at the same functions of its own arguments: equal,
    entry by entry. -/
theorem algebraic : Cert.algebraic_KernelIdeal_ReferenceIdeal := by
  intro m ρ m' ρ' _ hagree
  refine ⟨fun c => Cert.Lstm.Ker.hidOf m c, fun c => Cert.Lstm.Ker.cellOf m c, Cert.Lstm.Ker.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · obtain ⟨a0, a1, a2, a3, a4, a5, a6⟩ := hagree c
    rw [Cert.ReferenceIdeal.Read.val_main_v36_eq, Cert.Lstm.Ref.hid_eq, a0, a1, a2, a3, a4, a5, a6]
    rfl
  · obtain ⟨a0, a1, a2, a3, a4, a5, a6⟩ := hagree c
    rw [Cert.ReferenceIdeal.Read.val_main_v34_eq, Cert.Lstm.Ref.cell_eq, a0, a1, a2, a3, a4, a5, a6]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
